-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩

abbrev nBuf : Space → Nat
  | .hbm => 110
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000, .f32⟩
  | .hbm, ⟨89, _⟩ => ⟨S1600000, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S1600000x1, .f32⟩
  | .hbm, ⟨100, _⟩ => ⟨S1600000x64, .f32⟩
  | .hbm, ⟨101, _⟩ => ⟨S1600000x64, .f32⟩
  | .hbm, ⟨102, _⟩ => ⟨S_, .f32⟩
  | .hbm, ⟨103, _⟩ => ⟨S100000x64, .f32⟩
  | .hbm, ⟨104, _⟩ => ⟨S1600000x1, .i32⟩
  | .hbm, ⟨105, _⟩ => ⟨S100000x64, .f32⟩
  | .hbm, ⟨106, _⟩ => ⟨S100000, .f32⟩
  | .hbm, ⟨107, _⟩ => ⟨S100000x1, .f32⟩
  | .hbm, ⟨108, _⟩ => ⟨S1x64, .f32⟩
  | .hbm, ⟨109, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_15 : Ref sig .tc := ⟨.hbm, 90, rfl⟩
abbrev main_v67 : Ref sig .tc := ⟨.hbm, 91, rfl⟩
abbrev main_v68 : Ref sig .tc := ⟨.hbm, 92, rfl⟩
abbrev main_c_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.  @main is four pipelined regions among three stretches of host
  operations.  The buffer contents of a core at the seven segment boundaries form a chain `W0 … W7`: the launch memory;
  a stretch's operations applied; a region's arrays replaced by what its write-backs leave.  After every weakly fair
  execution the result array holds `W7` at the result's reference, and the six argument arrays are as launched.
-/
import proofs.«144316_j80487687127268_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds the last
    boundary's contents at its reference and the six argument arrays are as launched. -/
theorem run : θ_run defs (onTc (τ := τ) (main (F := F))) ⟨m, fun _ => 0, ρ⟩ (fun r => ∀ c : Dev nD,
      r.2.mem ((c.tc : Thread nD τ).loc main_v83) = W7 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v83 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.BlockSpec.lean ====
/-
  The two dense pieces of a graph-convolution layer, as functions of whole arrays over the extended reals.

  A layer of the network first multiplies the node features by a weight matrix, `h = x · W`; then, with `agg` the
  sum over incoming edges of the normalised neighbour rows, `d` the column of squared inverse root degrees and `b` the
  bias row, its output at node `r` and feature `f` is
      `(agg (r, f) + h (r, f) · d (r, 0)) + b (0, f)`,
  the self-loop term and the bias added onto the aggregate; the first layer then takes the maximum with zero.
  `matProd` and `selfLoopBias` are these two functions; `reluOf` is the maximum with the float word zero.
-/
import Idealize.ShloMosaic.PureOps.Ideal.Laws
import Idealize.ShloMosaic.Lib.ValueIdx

noncomputable section

namespace Cert.Gcn

open Idealize.ShloMosaic Idealize.ShloMosaic.ValueIdx

/-- The row coordinate of an index of an `[n, p]` array, at its literal bound. -/
abbrev row {n p : ℕ} (i : (⟨2, ![n, p]⟩ : Shape).Idx) : Fin n := ⟨(i 0).val, (i 0).isLt⟩
/-- The column coordinate of an index of an `[n, p]` array, at its literal bound. -/
abbrev col {n p : ℕ} (i : (⟨2, ![n, p]⟩ : Shape).Idx) : Fin p := ⟨(i 1).val, (i 1).isLt⟩

/-- The matrix product: entry `(r, f)` is the sum over `q` of `x (r, q) · w (q, f)`. -/
def matProd {n k p : ℕ} (x : (⟨2, ![n, k]⟩ : Shape).Idx → EReal) (w : (⟨2, ![k, p]⟩ : Shape).Idx → EReal) :
    (⟨2, ![n, p]⟩ : Shape).Idx → EReal :=
  fun i => ∑ q : Fin k, x (ix2 (row i) q) * w (ix2 q (col i))

/-- The aggregate with the self-loop term and the bias added: `(agg + h · d) + b`, the column `d` read at the entry's
    row and the row `b` at its column. -/
def selfLoopBias {n p : ℕ} (agg h : (⟨2, ![n, p]⟩ : Shape).Idx → EReal) (d : (⟨2, ![n, 1]⟩ : Shape).Idx → EReal)
    (b : (⟨2, ![1, p]⟩ : Shape).Idx → EReal) : (⟨2, ![n, p]⟩ : Shape).Idx → EReal :=
  fun i => (agg i + h i * d (ix2 (row i) (0 : Fin 1))) + b (ix2 (0 : Fin 1) (col i))

/-- The maximum with the float word zero, entry by entry. -/
def reluOf {s : Shape} (a : s.Idx → EReal) : s.Idx → EReal :=
  fun i => max (a i) (Ideal.ofBits .f32 0x00000000#32)

end Cert.Gcn

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  What the four kernel bodies compute on their blocks, at the exact instance, as functions of the loaded blocks.

  The two matrix-product bodies round their operands to a narrower float format (the identity on the extended reals)
  and multiply into a zero accumulator: entry `(r, f)` of the result block is the sum over the contracted axis of
  `x (r, q) · w (q, f)` (`matProd`).  The two combining bodies broadcast the `[5000, 1]` column along its row and the
  `[1, 64]` bias along its column, and add: the result is `selfLoopBias` of the four blocks, the first followed by the
  maximum with zero.
-/
import proofs.«144316_j80487687127268_1_alg».proof.Proof.Gen.KernelIdeal.Skeleton
import proofs.«144316_j80487687127268_1_alg».proof.Proof.BlockSpec
import proofs.«144316_j80487687127268_1_alg».proof.Proof.LibColumnLayout
import Idealize.ShloMosaic.Lib.ValueLayout
import Idealize.ShloMosaic.Lib.Pipeline.Value

noncomputable section

namespace Cert.Gcn

open Cert.KernelIdeal Cert.KernelIdeal.Gen Idealize.ShloMosaic Idealize.ShloMosaic.ValueIdx

/-! ## The matrix products -/

section Dot1

theorem d1_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem d1_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem d1_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem d1_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first layer's product body on a block of 5000 rows: the matrix product of the block with the weights. -/
theorem pay_mm1 (xb : Vec Ideal S5000x128 .f32) (wb : Vec Ideal S128x64 .f32) :
    k0_pay1 (F := Ideal) xb wb = matProd (n := 5000) (k := 128) (p := 64) xb wb := by
  funext y
  unfold k0_pay1 matProd
  refine (Ideal.matmul_constant_zero_apply dot_S5000x128_S128x64_S5000x64_1_0_0_1_n_n none _ _ y).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx y ((contrEquiv1 dot_S5000x128_S128x64_S5000x64_1_0_0_1_n_n 128 rfl rfl).symm k) = ix2 (row y) k := funext fun a => Fin.ext (by
    match a with
    | ⟨0, _⟩ => exact d1_lhs0 _ _
    | ⟨1, _⟩ => exact (d1_lhs1 _ _).trans hk)
  have er : dot_S5000x128_S128x64_S5000x64_1_0_0_1_n_n.rhsIdx y ((contrEquiv1 dot_S5000x128_S128x64_S5000x64_1_0_0_1_n_n 128 rfl rfl).symm k) = ix2 k (col y) := funext fun a => Fin.ext (by
    match a with
    | ⟨0, _⟩ => exact (d1_rhs0 _ _).trans hk
    | ⟨1, _⟩ => exact d1_rhs1 _ _)
  rw [el, er]
  rfl
end Dot1

section Dot2

theorem d2_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d2_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem d2_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem d2_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second layer's product body on a block of 5000 rows: the matrix product of the block with the weights. -/
theorem pay_mm2 (xb : Vec Ideal S5000x64 .f32) (wb : Vec Ideal S64x64 .f32) :
    k2_pay1 (F := Ideal) xb wb = matProd (n := 5000) (k := 64) (p := 64) xb wb := by
  funext y
  unfold k2_pay1 matProd
  refine (Ideal.matmul_constant_zero_apply dot_S5000x64_S64x64_S5000x64_1_0_0_1_n_n none _ _ y).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx y ((contrEquiv1 dot_S5000x64_S64x64_S5000x64_1_0_0_1_n_n 64 rfl rfl).symm k) = ix2 (row y) k := funext fun a => Fin.ext (by
    match a with
    | ⟨0, _⟩ => exact d2_lhs0 _ _
    | ⟨1, _⟩ => exact (d2_lhs1 _ _).trans hk)
  have er : dot_S5000x64_S64x64_S5000x64_1_0_0_1_n_n.rhsIdx y ((contrEquiv1 dot_S5000x64_S64x64_S5000x64_1_0_0_1_n_n 64 rfl rfl).symm k) = ix2 k (col y) := funext fun a => Fin.ext (by
    match a with
    | ⟨0, _⟩ => exact (d2_rhs0 _ _).trans hk
    | ⟨1, _⟩ => exact d2_rhs1 _ _)
  rw [el, er]
  rw [shapeCast_self]
  rfl
end Dot2

/-! ## The combining bodies -/

/-- The second layer's combining body: the aggregate block, plus the feature block times the degree column, plus the
    bias row. -/
theorem pay_comb3 (a h : Vec Ideal S5000x64 .f32) (d : Vec Ideal S5000x1 .f32) (b : Vec Ideal S1x64 .f32) :
    k3_pay1 (F := Ideal) a h d b = selfLoopBias (n := 5000) (p := 64) a h d b := by
  funext y
  obtain ⟨p, q, rfl⟩ : ∃ (p : Fin 5000) (q : Fin 64), y = ix2 p q := ⟨y 0, y 1, eq_ix2 y⟩
  unfold k3_pay1 selfLoopBias
  simp only [shapeCast_self]
  rw [addf_apply, addf_apply, mulf_apply, broadcastTo_a1_ab_apply, broadcastTo_1b_ab_apply]

/-- The first layer's combining body: the same, followed by the maximum with zero. -/
theorem pay_comb1 (a h : Vec Ideal S5000x64 .f32) (d : Vec Ideal S5000x1 .f32) (b : Vec Ideal S1x64 .f32) :
    k1_pay1 (F := Ideal) a h d b = reluOf (selfLoopBias (n := 5000) (p := 64) a h d b) := by
  funext y
  obtain ⟨p, q, rfl⟩ : ∃ (p : Fin 5000) (q : Fin 64), y = ix2 p q := ⟨y 0, y 1, eq_ix2 y⟩
  unfold k1_pay1 reluOf selfLoopBias
  simp only [shapeCast_self]
  rw [maximumf_apply, addf_apply, addf_apply, mulf_apply, broadcastTo_a1_ab_apply, broadcastTo_1b_ab_apply]
  rfl

end Cert.Gcn

end
-- ==== Proof.Region0.lean ====
/-
  Region 0 (the first layer's feature transform) as a whole-array function of what the region finds.

  The region's grid has twenty points; point `t` reads rows `5000 t … 5000 t + 4999` of the node features and the whole
  weight matrix, and writes the same rows of the result.  A block's product with the weights is the rows' part of the
  whole product, so each written block is that block of `matProd x w`; the twenty blocks tile the result array, which
  therefore ends holding `matProd x w`.
-/
import proofs.«144316_j80487687127268_1_alg».proof.Proof.Gen.KernelIdeal.Frame
import proofs.«144316_j80487687127268_1_alg».proof.Proof.Payloads
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

variable (V : (c : Dev nD) → (b : Ref sig .tc) → Buf (Elt Ideal) ((c : Thread nD τ).loc b))

/-- The printed index maps of region 0, decided over the grid: the feature and result windows move one block of rows per
    point; the weight window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem iblk0_0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The weight window's block at every point is the whole weight matrix. -/
theorem iblk0_1_apply (c : Dev nD) (t : Fin cfg0.N) (y : S128x64.Idx) (k : S128x64.Idx)
    (hk0 : (k 0).val = (y 0).val) (hk1 : (k 1).val = (y 1).val) :
    (iblk0 V c 1 t : Vec Ideal S128x64 .f32) y = (V c main_arg2 : S128x64.Idx → EReal) k := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t 0 * 128 + 1 * (y 0).val = (k 0).val; rw [e2, hk0]; omega
  | ⟨1, _⟩ => show win0_1.index t 1 * 64 + 1 * (y 1).val = (k 1).val; rw [e3, hk1]; omega

/-- Where an entry of the result window's block at point `t` sits in the result array. -/
theorem emb0_2 (t : Fin cfg0.N) (y : S5000x64.Idx) :
    ((((cfg0.win 2).blk t).view.emb y) 0).val = 5000 * t.val + (y 0).val
      ∧ ((((cfg0.win 2).blk t).view.emb y) 1).val = (y 1).val := by
  obtain ⟨-, -, -, -, e4, e5⟩ := idx0 t
  constructor
  · show win0_2.index t 0 * 5000 + 1 * (y 0).val = _; rw [e4]; omega
  · show win0_2.index t 1 * 64 + 1 * (y 1).val = _; rw [e5]; omega

/-- What point `t` writes back is block `t` of the whole product. -/
theorem flushed0 (c : Dev nD) (t : Fin cfg0.N) :
    (dat0 V c).flushed 2 t = ((cfg0.win 2).blk t).view.read (Elt Ideal)
      (matProd (n := 100000) (k := 128) (p := 64) (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  rw [pay_mm1]
  funext y
  obtain ⟨h0, h1⟩ := emb0_2 t y
  show matProd (n := 5000) (k := 128) (p := 64) (iblk0 V c 0 t) (iblk0 V c 1 t) y
    = matProd (n := 100000) (k := 128) (p := 64) (V c main_arg0) (V c main_arg2) (((cfg0.win 2).blk t).view.emb y)
  unfold matProd
  refine Finset.sum_congr rfl fun q _ => ?_
  exact congrArg₂ (· * ·) (iblk0_0_apply V c t _ _ h0.symm.symm rfl) (iblk0_1_apply V c t _ _ rfl h1)

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every row of the result array lies in the block of the point `row / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by omega⟩, flush0_2 _, ?_⟩
  rw [mem_blk0]
  obtain ⟨-, -, -, -, e4, e5⟩ := idx0 ⟨(i 0).val / 5000, by omega⟩
  intro a
  match a with
  | ⟨0, _⟩ =>
    show win0_2.index ⟨(i 0).val / 5000, _⟩ 0 * 5000 ≤ (i 0).val ∧ (i 0).val < win0_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, _⟩ 1 * 64 ≤ (i 1).val ∧ (i 1).val < win0_2.index ⟨(i 0).val / 5000, _⟩ 1 * 64 + 64
    rw [e5]; omega

/-- After region 0 its result array holds the matrix product of the two arrays it read. -/
theorem region0 (c : Dev nD) :
    (dat0 V c).arrAt 2 cfg0.N = matProd (n := 100000) (k := 128) (p := 64) (V c main_arg0) (V c main_arg2) :=
  (dat0 V c).arrAt_eq_of_cover 2 _ (fun t _ => flushed0 V c t) cover0

end Cert.Gcn

end
-- ==== Proof.Region1.lean ====
/-
  Region 1 (the first layer's combine) as a whole-array function of what the region finds.

  Point `t` of twenty reads rows `5000 t … 5000 t + 4999` of the aggregate, of the transformed features and of the
  `[100000, 1]` column of squared inverse root degrees, and the whole `[1, 64]` bias row; it writes the same rows of the
  result.  The body works entry by entry on the row's own column entry and the column's own bias entry, so each written
  block is that block of `reluOf (selfLoopBias agg h d b)` of the whole arrays; the twenty blocks tile the result array.
-/
import proofs.«144316_j80487687127268_1_alg».proof.Proof.Gen.KernelIdeal.Frame
import proofs.«144316_j80487687127268_1_alg».proof.Proof.Payloads
import proofs.«144316_j80487687127268_1_alg».proof.Proof.Region0
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps of region 1, decided over the grid: the four row-blocked windows move one block of rows per
    point; the bias window stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate window's block at point `t` is rows `5000 t …` of the aggregate. -/
theorem iblk1_0_apply (c : Dev nD) (t : Fin cfg1.N) (y : S5000x64.Idx) (k : S100000x64.Idx)
    (hk0 : (k 0).val = 5000 * t.val + (y 0).val) (hk1 : (k 1).val = (y 1).val) :
    (iblk1 V c 0 t : Vec Ideal S5000x64 .f32) y = (V c main_v39 : S100000x64.Idx → EReal) k := by
  obtain ⟨e0, e1, -⟩ := idx1 t
  unfold iblk1
  rw [View.read_apply]
  show V c main_v39 _ = V c main_v39 _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- The feature window's block at point `t` is rows `5000 t …` of the transformed features. -/
theorem iblk1_1_apply (c : Dev nD) (t : Fin cfg1.N) (y : S5000x64.Idx) (k : S100000x64.Idx)
    (hk0 : (k 0).val = 5000 * t.val + (y 0).val) (hk1 : (k 1).val = (y 1).val) :
    (iblk1 V c 1 t : Vec Ideal S5000x64 .f32) y = (V c main_v4 : S100000x64.Idx → EReal) k := by
  obtain ⟨-, -, e0, e1, -⟩ := idx1 t
  unfold iblk1
  rw [View.read_apply]
  show V c main_v4 _ = V c main_v4 _
  congr 1
  funext a
  apply Fin.ext
  match a with
  | ⟨0, _⟩ => show win1_1.index t 0 * 5000 + 1 * (y 0).val = (k 0).val; rw [e0, hk0]; omega
  | ⟨1, _⟩ => show win1_1.index t 1 * 64 + 1 * (y 1).val = (k 1).val; rw [e1, hk1]; omega

/-- The degree window's block at point `t` is rows `5000 t …` of the degree column. -/
theorem iblk1_2_apply (c : Dev nD) (t : Fin cfg1.N) (y : S5000x1.Idx) (k : S100000x1.Idx)
    (hk0 : (k 0).val = 5000 * t.val + (y 0).val) (hk1 : (k 1).val = (y 1).val) :
    (iblk1 V c 2 t : Vec Ideal S5000x1 .f32) y = (V c main_v41 : S100000x1.Idx → EReal) k := by
  obtain ⟨-, -, -, -, e0, e1, -⟩ := idx1 t
  unfold iblk1
  rw [View.read_apply]
  show V c main_v41 _ = V c main_v41 _
  congr 1
  funext a
  apply Fin.ext
  match a with
  | ⟨0, _⟩ => show win1_2.index t 0 * 5000 + 1 * (y 0).val = (k 0).val; rw [e0, hk0]; omega
  | ⟨1, _⟩ => show win1_2.index t 1 * 1 + 1 * (y 1).val = (k 1).val; rw [e1, hk1]; omega

/-- The bias window's block at every point is the whole bias row. -/
theorem iblk1_3_apply (c : Dev nD) (t : Fin cfg1.N) (y : S1x64.Idx) (k : S1x64.Idx)
    (hk0 : (k 0).val = (y 0).val) (hk1 : (k 1).val = (y 1).val) :
    (iblk1 V c 3 t : Vec Ideal S1x64 .f32) y = (V c main_v42 : S1x64.Idx → EReal) k := by
  obtain ⟨-, -, -, -, -, -, e0, e1, -⟩ := idx1 t
  unfold iblk1
  rw [View.read_apply]
  show V c main_v42 _ = V c main_v42 _
  congr 1
  funext a
  apply Fin.ext
  match a with
  | ⟨0, _⟩ => show win1_3.index t 0 * 1 + 1 * (y 0).val = (k 0).val; rw [e0, hk0]; omega
  | ⟨1, _⟩ => show win1_3.index t 1 * 64 + 1 * (y 1).val = (k 1).val; rw [e1, hk1]; omega

/-- Where an entry of the result window's block at point `t` sits in the result array. -/
theorem emb1_4 (t : Fin cfg1.N) (y : S5000x64.Idx) :
    ((((cfg1.win 4).blk t).view.emb y) 0).val = 5000 * t.val + (y 0).val
      ∧ ((((cfg1.win 4).blk t).view.emb y) 1).val = (y 1).val := by
  obtain ⟨-, -, -, -, -, -, -, -, e4, e5⟩ := idx1 t
  constructor
  · show win1_4.index t 0 * 5000 + 1 * (y 0).val = _; rw [e4]; omega
  · show win1_4.index t 1 * 64 + 1 * (y 1).val = _; rw [e5]; omega

/-- What point `t` writes back is block `t` of the layer's output computed on the whole arrays. -/
theorem flushed1 (c : Dev nD) (t : Fin cfg1.N) :
    (dat1 V c).flushed 4 t = ((cfg1.win 4).blk t).view.read (Elt Ideal)
      (reluOf (selfLoopBias (n := 100000) (p := 64) (V c main_v39) (V c main_v4) (V c main_v41) (V c main_v42))) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2, View.ld_unit_zero (S := S1x64) hz2]
  rw [pay_comb1]
  funext y
  obtain ⟨h0, h1⟩ := emb1_4 t y
  have ea := iblk1_0_apply V c t y (((cfg1.win 4).blk t).view.emb y) h0 h1
  have eh := iblk1_1_apply V c t y (((cfg1.win 4).blk t).view.emb y) h0 h1
  have ed := iblk1_2_apply V c t (ix2 (row y) (0 : Fin 1)) (ix2 (row (((cfg1.win 4).blk t).view.emb y)) (0 : Fin 1)) h0 rfl
  have eb := iblk1_3_apply V c t (ix2 (0 : Fin 1) (col y)) (ix2 (0 : Fin 1) (col (((cfg1.win 4).blk t).view.emb y))) rfl h1
  show reluOf (selfLoopBias (n := 5000) (p := 64) (iblk1 V c 0 t) (iblk1 V c 1 t) (iblk1 V c 2 t) (iblk1 V c 3 t)) y
    = reluOf (selfLoopBias (n := 100000) (p := 64) (V c main_v39) (V c main_v4) (V c main_v41) (V c main_v42)) (((cfg1.win 4).blk t).view.emb y)
  simp only [reluOf, selfLoopBias]
  rw [ea, eh, ed, eb]

/-- An index of the result array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Every row of the result array lies in the block of the point `row / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  refine ⟨⟨(i 0).val / 5000, by omega⟩, flush1_4 _, ?_⟩
  rw [mem_blk1]
  obtain ⟨-, -, -, -, -, -, -, -, e4, e5⟩ := idx1 ⟨(i 0).val / 5000, by omega⟩
  intro a
  match a with
  | ⟨0, _⟩ =>
    show win1_4.index ⟨(i 0).val / 5000, _⟩ 0 * 5000 ≤ (i 0).val ∧ (i 0).val < win1_4.index ⟨(i 0).val / 5000, _⟩ 0 * 5000 + 5000
    rw [e4]; show (i 0).val / 5000 * 5000 ≤ (i 0).val ∧ (i 0).val < (i 0).val / 5000 * 5000 + 5000; omega
  | ⟨1, _⟩ =>
    show win1_4.index ⟨(i 0).val / 5000, _⟩ 1 * 64 ≤ (i 1).val ∧ (i 1).val < win1_4.index ⟨(i 0).val / 5000, _⟩ 1 * 64 + 64
    rw [e5]; omega

/-- After region 1 its result array holds the layer's output computed from the four arrays it read. -/
theorem region1 (c : Dev nD) :
    (dat1 V c).arrAt 4 cfg1.N
      = reluOf (selfLoopBias (n := 100000) (p := 64) (V c main_v39) (V c main_v4) (V c main_v41) (V c main_v42)) :=
  (dat1 V c).arrAt_eq_of_cover 4 _ (fun t _ => flushed1 V c t) cover1

end Cert.Gcn

end
-- ==== Proof.Region2.lean ====
/-
  Region 2 (the second layer's feature transform) as a whole-array function of what the region finds: as in the first
  layer, point `t` of twenty multiplies rows `5000 t … 5000 t + 4999` of the hidden features by the whole 64 × 64 weight
  matrix and writes the same rows of the result, so the result array ends holding the whole matrix product.
-/
import proofs.«144316_j80487687127268_1_alg».proof.Proof.Gen.KernelIdeal.Frame
import proofs.«144316_j80487687127268_1_alg».proof.Proof.Payloads
import proofs.«144316_j80487687127268_1_alg».proof.Proof.Region0
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps of region 2, decided over the grid: the feature and result windows move one block of rows per
    point; the weight window stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden-feature window's block at point `t` is rows `5000 t …` of the hidden-feature array. -/
theorem iblk2_0_apply (c : Dev nD) (t : Fin cfg2.N) (y : S5000x64.Idx) (k : S100000x64.Idx)
    (hk0 : (k 0).val = 5000 * t.val + (y 0).val) (hk1 : (k 1).val = (y 1).val) :
    (iblk2 V c 0 t : Vec Ideal S5000x64 .f32) y = (V c main_v43 : S100000x64.Idx → EReal) k := by
  obtain ⟨e0, e1, -⟩ := idx2 t
  unfold iblk2
  rw [View.read_apply]
  show V c main_v43 _ = V c main_v43 _
  congr 1
  funext a
  apply Fin.ext
  match a with
  | ⟨0, _⟩ => show win2_0.index t 0 * 5000 + 1 * (y 0).val = (k 0).val; rw [e0, hk0]; omega
  | ⟨1, _⟩ => show win2_0.index t 1 * 64 + 1 * (y 1).val = (k 1).val; rw [e1, hk1]; omega

/-- The weight window's block at every point is the whole weight matrix. -/
theorem iblk2_1_apply (c : Dev nD) (t : Fin cfg2.N) (y : S64x64.Idx) (k : S64x64.Idx)
    (hk0 : (k 0).val = (y 0).val) (hk1 : (k 1).val = (y 1).val) :
    (iblk2 V c 1 t : Vec Ideal S64x64 .f32) y = (V c main_arg4 : S64x64.Idx → EReal) k := by
  obtain ⟨-, -, e2, e3, -⟩ := idx2 t
  unfold iblk2
  rw [View.read_apply]
  show V c main_arg4 _ = V c main_arg4 _
  congr 1
  funext a
  apply Fin.ext
  match a with
  | ⟨0, _⟩ => show win2_1.index t 0 * 64 + 1 * (y 0).val = (k 0).val; rw [e2, hk0]; omega
  | ⟨1, _⟩ => show win2_1.index t 1 * 64 + 1 * (y 1).val = (k 1).val; rw [e3, hk1]; omega

/-- Where an entry of the result window's block at point `t` sits in the result array. -/
theorem emb2_2 (t : Fin cfg2.N) (y : S5000x64.Idx) :
    ((((cfg2.win 2).blk t).view.emb y) 0).val = 5000 * t.val + (y 0).val
      ∧ ((((cfg2.win 2).blk t).view.emb y) 1).val = (y 1).val := by
  obtain ⟨-, -, -, -, e4, e5⟩ := idx2 t
  constructor
  · show win2_2.index t 0 * 5000 + 1 * (y 0).val = _; rw [e4]; omega
  · show win2_2.index t 1 * 64 + 1 * (y 1).val = _; rw [e5]; omega

/-- What point `t` writes back is block `t` of the whole product. -/
theorem flushed2 (c : Dev nD) (t : Fin cfg2.N) :
    (dat2 V c).flushed 2 t = ((cfg2.win 2).blk t).view.read (Elt Ideal)
      (matProd (n := 100000) (k := 64) (p := 64) (V c main_v43) (V c main_arg4)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x64) hz2]
  rw [pay_mm2]
  funext y
  obtain ⟨h0, h1⟩ := emb2_2 t y
  show matProd (n := 5000) (k := 64) (p := 64) (iblk2 V c 0 t) (iblk2 V c 1 t) y
    = matProd (n := 100000) (k := 64) (p := 64) (V c main_v43) (V c main_arg4) (((cfg2.win 2).blk t).view.emb y)
  unfold matProd
  refine Finset.sum_congr rfl fun q _ => ?_
  exact congrArg₂ (· * ·) (iblk2_0_apply V c t _ _ h0.symm.symm rfl) (iblk2_1_apply V c t _ _ rfl h1)

/-- An index of the result array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Every row of the result array lies in the block of the point `row / 5000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by omega⟩, flush2_2 _, ?_⟩
  rw [mem_blk2]
  obtain ⟨-, -, -, -, e4, e5⟩ := idx2 ⟨(i 0).val / 5000, by omega⟩
  intro a
  match a with
  | ⟨0, _⟩ =>
    show win2_2.index ⟨(i 0).val / 5000, _⟩ 0 * 5000 ≤ (i 0).val ∧ (i 0).val < win2_2.index ⟨(i 0).val / 5000, _⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, _⟩ 1 * 64 ≤ (i 1).val ∧ (i 1).val < win2_2.index ⟨(i 0).val / 5000, _⟩ 1 * 64 + 64
    rw [e5]; omega

/-- After region 2 its result array holds the matrix product of the two arrays it read. -/
theorem region2 (c : Dev nD) :
    (dat2 V c).arrAt 2 cfg2.N = matProd (n := 100000) (k := 64) (p := 64) (V c main_v43) (V c main_arg4) :=
  (dat2 V c).arrAt_eq_of_cover 2 _ (fun t _ => flushed2 V c t) cover2

end Cert.Gcn

end
-- ==== Proof.Region3.lean ====
/-
  Region 3 (the second layer's combine) as a whole-array function of what the region finds: point `t` of twenty reads
  rows `5000 t … 5000 t + 4999` of the second aggregate, of the second transformed features and of the degree column,
  and the whole bias row, and writes the same rows of the result.  There is no maximum here: each written block is that
  block of `selfLoopBias agg h d b` of the whole arrays, and the twenty blocks tile the result array.
-/
import proofs.«144316_j80487687127268_1_alg».proof.Proof.Gen.KernelIdeal.Frame
import proofs.«144316_j80487687127268_1_alg».proof.Proof.Payloads
import proofs.«144316_j80487687127268_1_alg».proof.Proof.Region0
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps of region 3, decided over the grid: the four row-blocked windows move one block of rows per
    point; the bias window stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate window's block at point `t` is rows `5000 t …` of the aggregate. -/
theorem iblk3_0_apply (c : Dev nD) (t : Fin cfg3.N) (y : S5000x64.Idx) (k : S100000x64.Idx)
    (hk0 : (k 0).val = 5000 * t.val + (y 0).val) (hk1 : (k 1).val = (y 1).val) :
    (iblk3 V c 0 t : Vec Ideal S5000x64 .f32) y = (V c main_v79 : S100000x64.Idx → EReal) k := by
  obtain ⟨e0, e1, -⟩ := idx3 t
  unfold iblk3
  rw [View.read_apply]
  show V c main_v79 _ = V c main_v79 _
  congr 1
  funext a
  apply Fin.ext
  match a with
  | ⟨0, _⟩ => show win3_0.index t 0 * 5000 + 1 * (y 0).val = (k 0).val; rw [e0, hk0]; omega
  | ⟨1, _⟩ => show win3_0.index t 1 * 64 + 1 * (y 1).val = (k 1).val; rw [e1, hk1]; omega

/-- The feature window's block at point `t` is rows `5000 t …` of the transformed features. -/
theorem iblk3_1_apply (c : Dev nD) (t : Fin cfg3.N) (y : S5000x64.Idx) (k : S100000x64.Idx)
    (hk0 : (k 0).val = 5000 * t.val + (y 0).val) (hk1 : (k 1).val = (y 1).val) :
    (iblk3 V c 1 t : Vec Ideal S5000x64 .f32) y = (V c main_v44 : S100000x64.Idx → EReal) k := by
  obtain ⟨-, -, e0, e1, -⟩ := idx3 t
  unfold iblk3
  rw [View.read_apply]
  show V c main_v44 _ = V c main_v44 _
  congr 1
  funext a
  apply Fin.ext
  match a with
  | ⟨0, _⟩ => show win3_1.index t 0 * 5000 + 1 * (y 0).val = (k 0).val; rw [e0, hk0]; omega
  | ⟨1, _⟩ => show win3_1.index t 1 * 64 + 1 * (y 1).val = (k 1).val; rw [e1, hk1]; omega

/-- The degree window's block at point `t` is rows `5000 t …` of the degree column. -/
theorem iblk3_2_apply (c : Dev nD) (t : Fin cfg3.N) (y : S5000x1.Idx) (k : S100000x1.Idx)
    (hk0 : (k 0).val = 5000 * t.val + (y 0).val) (hk1 : (k 1).val = (y 1).val) :
    (iblk3 V c 2 t : Vec Ideal S5000x1 .f32) y = (V c main_v81 : S100000x1.Idx → EReal) k := by
  obtain ⟨-, -, -, -, e0, e1, -⟩ := idx3 t
  unfold iblk3
  rw [View.read_apply]
  show V c main_v81 _ = V c main_v81 _
  congr 1
  funext a
  apply Fin.ext
  match a with
  | ⟨0, _⟩ => show win3_2.index t 0 * 5000 + 1 * (y 0).val = (k 0).val; rw [e0, hk0]; omega
  | ⟨1, _⟩ => show win3_2.index t 1 * 1 + 1 * (y 1).val = (k 1).val; rw [e1, hk1]; omega

/-- The bias window's block at every point is the whole bias row. -/
theorem iblk3_3_apply (c : Dev nD) (t : Fin cfg3.N) (y : S1x64.Idx) (k : S1x64.Idx)
    (hk0 : (k 0).val = (y 0).val) (hk1 : (k 1).val = (y 1).val) :
    (iblk3 V c 3 t : Vec Ideal S1x64 .f32) y = (V c main_v82 : S1x64.Idx → EReal) k := by
  obtain ⟨-, -, -, -, -, -, e0, e1, -⟩ := idx3 t
  unfold iblk3
  rw [View.read_apply]
  show V c main_v82 _ = V c main_v82 _
  congr 1
  funext a
  apply Fin.ext
  match a with
  | ⟨0, _⟩ => show win3_3.index t 0 * 1 + 1 * (y 0).val = (k 0).val; rw [e0, hk0]; omega
  | ⟨1, _⟩ => show win3_3.index t 1 * 64 + 1 * (y 1).val = (k 1).val; rw [e1, hk1]; omega

/-- Where an entry of the result window's block at point `t` sits in the result array. -/
theorem emb3_4 (t : Fin cfg3.N) (y : S5000x64.Idx) :
    ((((cfg3.win 4).blk t).view.emb y) 0).val = 5000 * t.val + (y 0).val
      ∧ ((((cfg3.win 4).blk t).view.emb y) 1).val = (y 1).val := by
  obtain ⟨-, -, -, -, -, -, -, -, e4, e5⟩ := idx3 t
  constructor
  · show win3_4.index t 0 * 5000 + 1 * (y 0).val = _; rw [e4]; omega
  · show win3_4.index t 1 * 64 + 1 * (y 1).val = _; rw [e5]; omega

/-- What point `t` writes back is block `t` of the layer's output computed on the whole arrays. -/
theorem flushed3 (c : Dev nD) (t : Fin cfg3.N) :
    (dat3 V c).flushed 4 t = ((cfg3.win 4).blk t).view.read (Elt Ideal)
      (selfLoopBias (n := 100000) (p := 64) (V c main_v79) (V c main_v44) (V c main_v81) (V c main_v82)) := by
  show (cfg3.win 4).cut (grid3.coords t) ((dat3 V c).after 4 t) = _
  rw [after3_4]
  unfold out3_4
  rw [View.canon_unit_zero hz2]
  simp only [View.ld_unit_zero (S := S5000x64) hz2, View.ld_unit_zero (S := S5000x1) hz2, View.ld_unit_zero (S := S1x64) hz2]
  rw [pay_comb3]
  funext y
  obtain ⟨h0, h1⟩ := emb3_4 t y
  have ea := iblk3_0_apply V c t y (((cfg3.win 4).blk t).view.emb y) h0 h1
  have eh := iblk3_1_apply V c t y (((cfg3.win 4).blk t).view.emb y) h0 h1
  have ed := iblk3_2_apply V c t (ix2 (row y) (0 : Fin 1)) (ix2 (row (((cfg3.win 4).blk t).view.emb y)) (0 : Fin 1)) h0 rfl
  have eb := iblk3_3_apply V c t (ix2 (0 : Fin 1) (col y)) (ix2 (0 : Fin 1) (col (((cfg3.win 4).blk t).view.emb y))) rfl h1
  show selfLoopBias (n := 5000) (p := 64) (iblk3 V c 0 t) (iblk3 V c 1 t) (iblk3 V c 2 t) (iblk3 V c 3 t) y
    = selfLoopBias (n := 100000) (p := 64) (V c main_v79) (V c main_v44) (V c main_v81) (V c main_v82) (((cfg3.win 4).blk t).view.emb y)
  unfold selfLoopBias
  exact congrArg₂ (· + ·) (congrArg₂ (· + ·) ea (congrArg₂ (· * ·) eh ed)) eb

/-- An index of the result array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v83).slice (win3_4.rect t)).set ↔ _
  rw [View.set_slice_whole, Rect.mem_set_unit]
  exact Iff.rfl

/-- Every row of the result array lies in the block of the point `row / 5000`. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  refine ⟨⟨(i 0).val / 5000, by omega⟩, flush3_4 _, ?_⟩
  rw [mem_blk3]
  obtain ⟨-, -, -, -, -, -, -, -, e4, e5⟩ := idx3 ⟨(i 0).val / 5000, by omega⟩
  intro a
  match a with
  | ⟨0, _⟩ =>
    show win3_4.index ⟨(i 0).val / 5000, _⟩ 0 * 5000 ≤ (i 0).val ∧ (i 0).val < win3_4.index ⟨(i 0).val / 5000, _⟩ 0 * 5000 + 5000
    rw [e4]; show (i 0).val / 5000 * 5000 ≤ (i 0).val ∧ (i 0).val < (i 0).val / 5000 * 5000 + 5000; omega
  | ⟨1, _⟩ =>
    show win3_4.index ⟨(i 0).val / 5000, _⟩ 1 * 64 ≤ (i 1).val ∧ (i 1).val < win3_4.index ⟨(i 0).val / 5000, _⟩ 1 * 64 + 64
    rw [e5]; omega

/-- After region 3 its result array holds the layer's output computed from the four arrays it read. -/
theorem region3 (c : Dev nD) :
    (dat3 V c).arrAt 4 cfg3.N
      = selfLoopBias (n := 100000) (p := 64) (V c main_v79) (V c main_v44) (V c main_v81) (V c main_v82) :=
  (dat3 V c).arrAt_eq_of_cover 4 _ (fun t _ => flushed3 V c t) cover3

end Cert.Gcn

end
-- ==== Proof.RefBridge.lean ====
/-
  The reference's stages, met by the dense pieces.

  The reference computes a layer with plain array operations: a `dot_general` for the feature transform, and for the
  combine a product with the squared inverse root degrees broadcast along each row, a sum with the aggregate, and a sum
  with the bias broadcast along each column (then, in the first layer, a maximum with a zero array).  Read at an index
  these are `matProd` and `selfLoopBias` (`reluOf` of it) of the same operands — the degree vector and the bias vector
  entering the kernel's side as an `[n, 1]` column and a `[1, 64]` row, casts that read the vector at the row, respectively
  column, coordinate.
-/
import proofs.«144316_j80487687127268_1_alg».proof.Proof.Gen.ReferenceIdeal.Read
import proofs.«144316_j80487687127268_1_alg».proof.Proof.BlockSpec
import proofs.«144316_j80487687127268_1_alg».proof.Proof.LibColumnLayout
import Idealize.ShloMosaic.Lib.ValueLayout

set_option maxRecDepth 16384

noncomputable section

namespace Cert.Gcn

open Cert.ReferenceIdeal Cert.ReferenceIdeal.Read Idealize.ShloMosaic Idealize.ShloMosaic.ValueIdx

/-- The first layer's `dot_general` is the matrix product. -/
theorem lin1_eq (x0 : (⟨S100000x128, .f32⟩ : BufTy).Contents (Elt Ideal)) (x2 : (⟨S128x64, .f32⟩ : BufTy).Contents (Elt Ideal)) :
    matProd (n := 100000) (k := 128) (p := 64) x0 x2 = val_main_v4 (F := Ideal) x0 x2 := by
  funext i
  rw [val_main_v4_apply]
  unfold matProd
  refine Finset.sum_congr rfl fun k _ => ?_
  have el : (ix2 (row i) k : S100000x128.Idx) = lidx_main_v4 i k := funext fun a => by
    match a with
    | ⟨0, _⟩ => rfl
    | ⟨1, _⟩ => rfl
  have er : (ix2 k (col i) : S128x64.Idx) = ridx_main_v4 i k := funext fun a => by
    match a with
    | ⟨0, _⟩ => rfl
    | ⟨1, _⟩ => rfl
  rw [el, er]

/-- The second layer's `dot_general` is the matrix product of the hidden features with the second weights. -/
theorem lin2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) :
    matProd (n := 100000) (k := 64) (p := 64) (val_main_v48 (F := Ideal) x0 x1 x2 x3) x4 = val_main_v49 (F := Ideal) x0 x1 x2 x3 x4 := by
  funext i
  rw [val_main_v49_apply]
  generalize val_main_v48 (F := Ideal) x0 x1 x2 x3 = y0
  unfold matProd
  refine Finset.sum_congr rfl fun k _ => ?_
  have el : (ix2 (row i) k : S100000x64.Idx) = lidx_main_v49 i k := funext fun a => by
    match a with
    | ⟨0, _⟩ => rfl
    | ⟨1, _⟩ => rfl
  have er : (ix2 k (col i) : S64x64.Idx) = ridx_main_v49 i k := funext fun a => by
    match a with
    | ⟨0, _⟩ => rfl
    | ⟨1, _⟩ => rfl
  rw [el, er]

/-- The first layer's combine, maximum included, is the reference's stage `main_v48`. -/
theorem comb1_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (hd : S100000.ShapeCasts S100000x1) (hb : S64.ShapeCasts S1x64) :
    reluOf (selfLoopBias (n := 100000) (p := 64) (val_main_v39 (F := Ideal) x0 x1 x2) (val_main_v4 (F := Ideal) x0 x2)
        (shapeCast S100000x1 (val_main_v40 (F := Ideal) x1) hd) (shapeCast S1x64 x3 hb))
      = val_main_v48 (F := Ideal) x0 x1 x2 x3 := by
  funext i
  obtain ⟨p, q, rfl⟩ : ∃ (p : Fin 100000) (q : Fin 64), i = ix2 p q := ⟨i 0, i 1, eq_ix2 i⟩
  rw [val_main_v48_apply, val_main_v47_apply, val_main_v44_apply, val_main_v43_apply, val_main_v42_apply, val_main_v41_apply,
    val_main_v46_apply, val_main_v45_apply, val_main_call0_v0_apply, val_main_call0_cst_apply]
  simp only [reluOf, selfLoopBias]
  rw [shapeCast_a_a1_apply, shapeCast_a_1a_apply]
  have e1 : idx_main_v41 (idx_main_v42 (ix2 p q)) = ix1 (row (ix2 p q : S100000x64.Idx)) := funext fun a => by
    match a with
    | ⟨0, _⟩ => rfl
  have e2 : idx_main_v45 (idx_main_v46 (ix2 p q)) = ix1 (col (ix2 p q : S100000x64.Idx)) := funext fun a => by
    match a with
    | ⟨0, _⟩ => rfl
  rw [e1, e2]
  rfl

/-- The second layer's combine is the reference's result stage `main_v92`. -/
theorem comb2_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (hd : S100000.ShapeCasts S100000x1) (hb : S64.ShapeCasts S1x64) :
    selfLoopBias (n := 100000) (p := 64) (val_main_v84 (F := Ideal) x0 x1 x2 x3 x4) (val_main_v49 (F := Ideal) x0 x1 x2 x3 x4)
        (shapeCast S100000x1 (val_main_v85 (F := Ideal) x1) hd) (shapeCast S1x64 x5 hb)
      = val_main_v92 (F := Ideal) x0 x1 x2 x3 x4 x5 := by
  funext i
  obtain ⟨p, q, rfl⟩ : ∃ (p : Fin 100000) (q : Fin 64), i = ix2 p q := ⟨i 0, i 1, eq_ix2 i⟩
  rw [val_main_v92_apply, val_main_v89_apply, val_main_v88_apply, val_main_v87_apply, val_main_v86_apply,
    val_main_v91_apply, val_main_v90_apply]
  simp only [selfLoopBias]
  rw [shapeCast_a_a1_apply, shapeCast_a_1a_apply]
  have e1 : idx_main_v86 (idx_main_v87 (ix2 p q)) = ix1 (row (ix2 p q : S100000x64.Idx)) := funext fun a => by
    match a with
    | ⟨0, _⟩ => rfl
  have e2 : idx_main_v90 (idx_main_v91 (ix2 p q)) = ix1 (col (ix2 p q : S100000x64.Idx)) := funext fun a => by
    match a with
    | ⟨0, _⟩ => rfl
  rw [e1, e2]
  rfl

end Cert.Gcn

end
-- ==== Proof.Chain.lean ====
/-
  The idealized kernel's result array as a function of the six arguments.

  Follow the contents of a core's buffers through @main.  The first stretch of host operations splits the edge array
  into its source and destination rows.  Region 0 leaves `x · W₁`.  The second stretch computes, from the edge rows and
  that product, the inverse root degrees, the edge weights, the aggregate (a gather of rows scaled by the edge weights
  and scatter-added to the destinations), the column of squared inverse root degrees and the bias row: the same host
  operations, in the same order, as the reference's, so each buffer holds the reference's stage of the same name.
  Region 1 leaves the first layer's output, region 2 its product with `W₂`; the third stretch repeats the second on that
  product; region 3 leaves the second layer's output — the reference's result stage.
-/
import proofs.«144316_j80487687127268_1_alg».proof.Proof.Gen.KernelIdeal.Frame
import proofs.«144316_j80487687127268_1_alg».proof.Proof.Region0
import proofs.«144316_j80487687127268_1_alg».proof.Proof.Region1
import proofs.«144316_j80487687127268_1_alg».proof.Proof.Region2
import proofs.«144316_j80487687127268_1_alg».proof.Proof.Region3
import proofs.«144316_j80487687127268_1_alg».proof.Proof.RefBridge

set_option maxRecDepth 16384

noncomputable section

namespace Cert.Gcn

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v4 val_main_v39 val_main_v40 val_main_v48 val_main_v49
  val_main_v84 val_main_v85 val_main_v92)

variable (m : (ℓ : Loc nD τ sig) → Buf (Elt Ideal) ℓ) (ρ : Dev nD → PrngReg)

/-- The six argument arrays as launched: node features, edges, and the two layers' weights and biases. -/
abbrev argX (c : Dev nD) := m ((c.tc : Thread nD τ).loc main_arg0)
abbrev argE (c : Dev nD) := m ((c.tc : Thread nD τ).loc main_arg1)
abbrev argW1 (c : Dev nD) := m ((c.tc : Thread nD τ).loc main_arg2)
abbrev argB1 (c : Dev nD) := m ((c.tc : Thread nD τ).loc main_arg3)
abbrev argW2 (c : Dev nD) := m ((c.tc : Thread nD τ).loc main_arg4)
abbrev argB2 (c : Dev nD) := m ((c.tc : Thread nD τ).loc main_arg5)

/-! ## After the first stretch: the edge rows; the arguments untouched -/

theorem W1_arg0 (c : Dev nD) : W1 m ρ c (Proc.devRef .tc main_arg0) = argX m c := by
  show StableHlo.after hostOps0 (W0 m ρ c) _ = _
  after_results <;> rfl
theorem W1_arg2 (c : Dev nD) : W1 m ρ c (Proc.devRef .tc main_arg2) = argW1 m c := by
  show StableHlo.after hostOps0 (W0 m ρ c) _ = _
  after_results <;> rfl
theorem W1_arg3 (c : Dev nD) : W1 m ρ c (Proc.devRef .tc main_arg3) = argB1 m c := by
  show StableHlo.after hostOps0 (W0 m ρ c) _ = _
  after_results <;> rfl
theorem W1_arg4 (c : Dev nD) : W1 m ρ c (Proc.devRef .tc main_arg4) = argW2 m c := by
  show StableHlo.after hostOps0 (W0 m ρ c) _ = _
  after_results <;> rfl
theorem W1_arg5 (c : Dev nD) : W1 m ρ c (Proc.devRef .tc main_arg5) = argB2 m c := by
  show StableHlo.after hostOps0 (W0 m ρ c) _ = _
  after_results <;> rfl
/-- The source row of the edge array. -/
theorem W1_v1 (c : Dev nD) : W1 m ρ c (Proc.devRef .tc main_v1) = val_main_v1 (F := Ideal) (argE m c) := by
  show StableHlo.after hostOps0 (W0 m ρ c) _ = _
  after_results <;> rfl
/-- The destination row of the edge array. -/
theorem W1_v3 (c : Dev nD) : W1 m ρ c (Proc.devRef .tc main_v3) = val_main_v3 (F := Ideal) (argE m c) := by
  show StableHlo.after hostOps0 (W0 m ρ c) _ = _
  after_results <;> rfl

/-! ## After region 0: the first product -/

theorem W2_v4 (c : Dev nD) :
    W2 m ρ c (Proc.devRef .tc main_v4) = val_main_v4 (F := Ideal) (argX m c) (argW1 m c) := by
  refine (W2_arr m ρ c 2).trans ?_
  rw [region0 (V1 m ρ) c]
  rw [show V1 m ρ c main_arg0 = argX m c from W1_arg0 m ρ c, show V1 m ρ c main_arg2 = argW1 m c from W1_arg2 m ρ c]
  exact lin1_eq _ _
theorem W2_v1 (c : Dev nD) : W2 m ρ c (Proc.devRef .tc main_v1) = val_main_v1 (F := Ideal) (argE m c) :=
  (W2_of_ne m ρ c main_v1 (by decide)).trans (W1_v1 m ρ c)
theorem W2_v3 (c : Dev nD) : W2 m ρ c (Proc.devRef .tc main_v3) = val_main_v3 (F := Ideal) (argE m c) :=
  (W2_of_ne m ρ c main_v3 (by decide)).trans (W1_v3 m ρ c)
theorem W2_arg3 (c : Dev nD) : W2 m ρ c (Proc.devRef .tc main_arg3) = argB1 m c :=
  (W2_of_ne m ρ c main_arg3 (by decide)).trans (W1_arg3 m ρ c)
theorem W2_arg4 (c : Dev nD) : W2 m ρ c (Proc.devRef .tc main_arg4) = argW2 m c :=
  (W2_of_ne m ρ c main_arg4 (by decide)).trans (W1_arg4 m ρ c)
theorem W2_arg5 (c : Dev nD) : W2 m ρ c (Proc.devRef .tc main_arg5) = argB2 m c :=
  (W2_of_ne m ρ c main_arg5 (by decide)).trans (W1_arg5 m ρ c)

/-! ## After the second stretch: the first layer's aggregate, degree column and bias row -/

theorem W3_v39 (c : Dev nD) :
    W3 m ρ c (Proc.devRef .tc main_v39) = val_main_v39 (F := Ideal) (argX m c) (argE m c) (argW1 m c) := by
  show StableHlo.after hostOps1 (W2 m ρ c) _ = _
  after_results_simp
  rw [W2_v4 m ρ c, W2_v1 m ρ c, W2_v3 m ρ c]
  rfl
theorem W3_v41 (c : Dev nD) :
    W3 m ρ c (Proc.devRef .tc main_v41) = shapeCast S100000x1 (val_main_v40 (F := Ideal) (argE m c)) shapeCasts_S100000_S100000x1 := by
  show StableHlo.after hostOps1 (W2 m ρ c) _ = _
  after_results_simp
  rw [W2_v3 m ρ c]
  rfl
theorem W3_v42 (c : Dev nD) :
    W3 m ρ c (Proc.devRef .tc main_v42) = shapeCast S1x64 (argB1 m c) shapeCasts_S64_S1x64 := by
  show StableHlo.after hostOps1 (W2 m ρ c) _ = _
  after_results_simp
  rw [W2_arg3 m ρ c]
  rfl
theorem W3_v4 (c : Dev nD) :
    W3 m ρ c (Proc.devRef .tc main_v4) = val_main_v4 (F := Ideal) (argX m c) (argW1 m c) := by
  refine Eq.trans ?_ (W2_v4 m ρ c)
  show StableHlo.after hostOps1 (W2 m ρ c) _ = _
  after_results_simp <;> rfl
theorem W3_v1 (c : Dev nD) : W3 m ρ c (Proc.devRef .tc main_v1) = val_main_v1 (F := Ideal) (argE m c) := by
  refine Eq.trans ?_ (W2_v1 m ρ c)
  show StableHlo.after hostOps1 (W2 m ρ c) _ = _
  after_results_simp <;> rfl
theorem W3_v3 (c : Dev nD) : W3 m ρ c (Proc.devRef .tc main_v3) = val_main_v3 (F := Ideal) (argE m c) := by
  refine Eq.trans ?_ (W2_v3 m ρ c)
  show StableHlo.after hostOps1 (W2 m ρ c) _ = _
  after_results_simp <;> rfl
theorem W3_arg4 (c : Dev nD) : W3 m ρ c (Proc.devRef .tc main_arg4) = argW2 m c := by
  refine Eq.trans ?_ (W2_arg4 m ρ c)
  show StableHlo.after hostOps1 (W2 m ρ c) _ = _
  after_results_simp <;> rfl
theorem W3_arg5 (c : Dev nD) : W3 m ρ c (Proc.devRef .tc main_arg5) = argB2 m c := by
  refine Eq.trans ?_ (W2_arg5 m ρ c)
  show StableHlo.after hostOps1 (W2 m ρ c) _ = _
  after_results_simp <;> rfl

/-! ## After region 1: the first layer's output; after region 2: its product with the second weights -/

theorem W4_v43 (c : Dev nD) :
    W4 m ρ c (Proc.devRef .tc main_v43) = val_main_v48 (F := Ideal) (argX m c) (argE m c) (argW1 m c) (argB1 m c) := by
  refine (W4_arr m ρ c 4).trans ?_
  rw [region1 (V3 m ρ) c]
  rw [show V3 m ρ c main_v39 = _ from W3_v39 m ρ c, show V3 m ρ c main_v4 = _ from W3_v4 m ρ c,
    show V3 m ρ c main_v41 = _ from W3_v41 m ρ c, show V3 m ρ c main_v42 = _ from W3_v42 m ρ c]
  exact comb1_eq _ _ _ _ _ _
theorem W4_v1 (c : Dev nD) : W4 m ρ c (Proc.devRef .tc main_v1) = val_main_v1 (F := Ideal) (argE m c) :=
  (W4_of_ne m ρ c main_v1 (by decide)).trans (W3_v1 m ρ c)
theorem W4_v3 (c : Dev nD) : W4 m ρ c (Proc.devRef .tc main_v3) = val_main_v3 (F := Ideal) (argE m c) :=
  (W4_of_ne m ρ c main_v3 (by decide)).trans (W3_v3 m ρ c)
theorem W4_arg4 (c : Dev nD) : W4 m ρ c (Proc.devRef .tc main_arg4) = argW2 m c :=
  (W4_of_ne m ρ c main_arg4 (by decide)).trans (W3_arg4 m ρ c)
theorem W4_arg5 (c : Dev nD) : W4 m ρ c (Proc.devRef .tc main_arg5) = argB2 m c :=
  (W4_of_ne m ρ c main_arg5 (by decide)).trans (W3_arg5 m ρ c)

theorem W5_v44 (c : Dev nD) :
    W5 m ρ c (Proc.devRef .tc main_v44)
      = val_main_v49 (F := Ideal) (argX m c) (argE m c) (argW1 m c) (argB1 m c) (argW2 m c) := by
  refine (W5_arr m ρ c 2).trans ?_
  rw [region2 (V4 m ρ) c]
  rw [show V4 m ρ c main_v43 = _ from W4_v43 m ρ c, show V4 m ρ c main_arg4 = argW2 m c from W4_arg4 m ρ c]
  exact lin2_eq _ _ _ _ _
theorem W5_v1 (c : Dev nD) : W5 m ρ c (Proc.devRef .tc main_v1) = val_main_v1 (F := Ideal) (argE m c) :=
  (W5_of_ne m ρ c main_v1 (by decide)).trans (W4_v1 m ρ c)
theorem W5_v3 (c : Dev nD) : W5 m ρ c (Proc.devRef .tc main_v3) = val_main_v3 (F := Ideal) (argE m c) :=
  (W5_of_ne m ρ c main_v3 (by decide)).trans (W4_v3 m ρ c)
theorem W5_arg5 (c : Dev nD) : W5 m ρ c (Proc.devRef .tc main_arg5) = argB2 m c :=
  (W5_of_ne m ρ c main_arg5 (by decide)).trans (W4_arg5 m ρ c)

/-! ## After the third stretch: the second layer's aggregate, degree column and bias row -/

theorem W6_v79 (c : Dev nD) :
    W6 m ρ c (Proc.devRef .tc main_v79)
      = val_main_v84 (F := Ideal) (argX m c) (argE m c) (argW1 m c) (argB1 m c) (argW2 m c) := by
  show StableHlo.after hostOps3 (W5 m ρ c) _ = _
  after_results_simp
  rw [W5_v44 m ρ c, W5_v1 m ρ c, W5_v3 m ρ c]
  rfl
theorem W6_v81 (c : Dev nD) :
    W6 m ρ c (Proc.devRef .tc main_v81) = shapeCast S100000x1 (val_main_v85 (F := Ideal) (argE m c)) shapeCasts_S100000_S100000x1 := by
  show StableHlo.after hostOps3 (W5 m ρ c) _ = _
  after_results_simp
  rw [W5_v3 m ρ c]
  rfl
theorem W6_v82 (c : Dev nD) :
    W6 m ρ c (Proc.devRef .tc main_v82) = shapeCast S1x64 (argB2 m c) shapeCasts_S64_S1x64 := by
  show StableHlo.after hostOps3 (W5 m ρ c) _ = _
  after_results_simp
  rw [W5_arg5 m ρ c]
  rfl
theorem W6_v44 (c : Dev nD) :
    W6 m ρ c (Proc.devRef .tc main_v44)
      = val_main_v49 (F := Ideal) (argX m c) (argE m c) (argW1 m c) (argB1 m c) (argW2 m c) := by
  refine Eq.trans ?_ (W5_v44 m ρ c)
  show StableHlo.after hostOps3 (W5 m ρ c) _ = _
  after_results_simp <;> rfl

/-! ## After region 3: the result -/

/-- The result array after the run is the reference's result stage of the six arguments. -/
theorem result_eq (c : Dev nD) :
    W7 m ρ c (Proc.devRef .tc main_v83)
      = val_main_v92 (F := Ideal) (argX m c) (argE m c) (argW1 m c) (argB1 m c) (argW2 m c) (argB2 m c) := by
  refine (W7_arr m ρ c 4).trans ?_
  rw [region3 (V6 m ρ) c]
  rw [show V6 m ρ c main_v79 = _ from W6_v79 m ρ c, show V6 m ρ c main_v44 = _ from W6_v44 m ρ c,
    show V6 m ρ c main_v81 = _ from W6_v81 m ρ c, show V6 m ρ c main_v82 = _ from W6_v82 m ρ c]
  exact comb2_eq _ _ _ _ _ _ _ _

end Cert.Gcn

end
-- ==== Proof.lean ====
/-
  A two-layer graph convolution, its kernel form against its reference.

  Each layer transforms the node features by a weight matrix, sums over every node's incoming edges the neighbours'
  transformed rows weighted by the inverse root degrees of the two endpoints, adds the node's own row weighted by its
  squared inverse root degree, and adds a bias; the first layer then takes the maximum with zero.  The kernel form runs
  the two feature transforms and the two self-loop-and-bias steps as pipelined regions over blocks of 5000 rows and
  leaves the degree, gather and scatter steps to the same host operations the reference uses.

  Over the extended reals the rounding of a product's operands to a narrower format is the identity, a block's matrix
  product is the rows' part of the whole product, and the self-loop-and-bias step works entry by entry; so after each
  region and each stretch of host operations every buffer of the kernel form holds the reference's stage of the same
  meaning, and the two results are one function of the six arguments.  No law of arithmetic is used beyond reading both
  sides at an index, so the finiteness of the inputs is never opened.  The idealization rewrote no operation.
-/
import proofs.«144316_j80487687127268_1_alg».proof.Defs
import proofs.«144316_j80487687127268_1_alg».proof.Proof.Gen.Kernel
import proofs.«144316_j80487687127268_1_alg».proof.Proof.Gen.Kernel.Skeleton
import proofs.«144316_j80487687127268_1_alg».proof.Proof.Gen.Kernel.Launch
import proofs.«144316_j80487687127268_1_alg».proof.Proof.Gen.Kernel.Points
import proofs.«144316_j80487687127268_1_alg».proof.Proof.Gen.Kernel.Frame
import proofs.«144316_j80487687127268_1_alg».proof.Proof.Gen.KernelIdeal
import proofs.«144316_j80487687127268_1_alg».proof.Proof.Gen.KernelIdeal.Skeleton
import proofs.«144316_j80487687127268_1_alg».proof.Proof.Gen.KernelIdeal.Launch
import proofs.«144316_j80487687127268_1_alg».proof.Proof.Gen.KernelIdeal.Points
import proofs.«144316_j80487687127268_1_alg».proof.Proof.Gen.KernelIdeal.Frame
import proofs.«144316_j80487687127268_1_alg».proof.Proof.Gen.ReferenceIdeal
import proofs.«144316_j80487687127268_1_alg».proof.Proof.Gen.ReferenceIdeal.Read
import proofs.«144316_j80487687127268_1_alg».proof.Proof.Gen.Pre_finite_inputs
import proofs.«144316_j80487687127268_1_alg».proof.Proof.KernelRun
import proofs.«144316_j80487687127268_1_alg».proof.Proof.Chain
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with the reference's result stage of those
    arguments in their result arrays. -/
theorem algebraic : Cert.algebraic_KernelIdeal_ReferenceIdeal := by
  intro m ρ m' ρ' _ hagree
  refine ⟨fun c => Cert.KernelIdeal.Gen.W7 m ρ c (Proc.devRef .tc Cert.KernelIdeal.main_v83),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2]
  exact (Cert.Gcn.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
